-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S256x128 : Shape := ⟨2, ![256, 128]⟩
abbrev S2000x128 : Shape := ⟨2, ![2000, 128]⟩
abbrev S2000x1 : Shape := ⟨2, ![2000, 1]⟩
abbrev S2000x256 : Shape := ⟨2, ![2000, 256]⟩
abbrev S1x128 : Shape := ⟨2, ![1, 128]⟩

abbrev nBuf : Space → Nat
  | .hbm => 49
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S50000x1, .f32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S_, .f32⟩
  | .hbm, ⟨29, _⟩ => ⟨S50000x128, .f32⟩
  | .hbm, ⟨30, _⟩ => ⟨S600000x1, .i32⟩
  | .hbm, ⟨31, _⟩ => ⟨S50000x128, .f32⟩
  | .hbm, ⟨32, _⟩ => ⟨S256x128, .f32⟩
  | .hbm, ⟨33, _⟩ => ⟨S50000x128, .f32⟩
  | .hbm, ⟨34, _⟩ => ⟨S_, .i32⟩
  | .hbm, ⟨35, _⟩ => ⟨S600000, .i32⟩
  | .hbm, ⟨36, _⟩ => ⟨S600000, .i1⟩
  | .hbm, ⟨37, _⟩ => ⟨S_, .i32⟩
  | .hbm, ⟨38, _⟩ => ⟨S600000, .i32⟩
  | .hbm, ⟨39, _⟩ => ⟨S600000, .i32⟩
  | .hbm, ⟨40, _⟩ => ⟨S600000, .i32⟩
  | .hbm, ⟨41, _⟩ => ⟨S600000x1, .i32⟩
  | .hbm, ⟨42, _⟩ => ⟨S600000x128, .f32⟩
  | .hbm, ⟨43, _⟩ => ⟨S_, .f32⟩
  | .hbm, ⟨44, _⟩ => ⟨S50000x128, .f32⟩
  | .hbm, ⟨45, _⟩ => ⟨S600000x1, .i32⟩
  | .hbm, ⟨46, _⟩ => ⟨S50000x128, .f32⟩
  | .hbm, ⟨47, _⟩ => ⟨S256x128, .f32⟩
  | .hbm, ⟨48, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S256x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x1, .f32⟩
  | .local _ .vmem, ⟨13, _⟩ => ⟨S2000x1, .f32⟩
  | .local _ .vmem, ⟨14, _⟩ => ⟨S2000x128, .f32⟩
  | .local _ .vmem, ⟨15, _⟩ => ⟨S2000x128, .f32⟩
  | .local _ .vmem, ⟨16, _⟩ => ⟨S256x128, .f32⟩
  | .local _ .vmem, ⟨17, _⟩ => ⟨S128, .f32⟩
  | .local _ .vmem, ⟨18, _⟩ => ⟨S2000x128, .f32⟩
  | .local _ .vmem, ⟨19, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_cst : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_c_1 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_cst_2 : Ref sig .tc := ⟨.hbm, 28, rfl⟩
abbrev main_call0_v16 : Ref sig .tc := ⟨.hbm, 29, rfl⟩
abbrev main_call0_v17 : Ref sig .tc := ⟨.hbm, 30, rfl⟩
abbrev main_call0_v18 : Ref sig .tc := ⟨.hbm, 31, rfl⟩
abbrev main_call0_v19 : Ref sig .tc := ⟨.hbm, 32, rfl⟩
abbrev main_call0_v20 : Ref sig .tc := ⟨.hbm, 33, rfl⟩
abbrev main_call0_c_3 : Ref sig .tc := ⟨.hbm, 34, rfl⟩
abbrev main_call0_v21 : Ref sig .tc := ⟨.hbm, 35, rfl⟩
abbrev main_call0_v22 : Ref sig .tc := ⟨.hbm, 36, rfl⟩
abbrev main_call0_c_4 : Ref sig .tc := ⟨.hbm, 37, rfl⟩
abbrev main_call0_v23 : Ref sig .tc := ⟨.hbm, 38, rfl⟩
abbrev main_call0_v24 : Ref sig .tc := ⟨.hbm, 39, rfl⟩
abbrev main_call0_v25 : Ref sig .tc := ⟨.hbm, 40, rfl⟩
abbrev main_call0_v26 : Ref sig .tc := ⟨.hbm, 41, rfl⟩
abbrev main_call0_v27 : Ref sig .tc := ⟨.hbm, 42, rfl⟩
abbrev main_call0_cst_5 : Ref sig .tc := ⟨.hbm, 43, rfl⟩
abbrev main_call0_v28 : Ref sig .tc := ⟨.hbm, 44, rfl⟩
abbrev main_call0_v29 : Ref sig .tc := ⟨.hbm, 45, rfl⟩
abbrev main_call0_v30 : Ref sig .tc := ⟨.hbm, 46, rfl⟩
abbrev main_call0_v31 : Ref sig .tc := ⟨.hbm, 47, rfl⟩
abbrev main_v0 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  concatenates_S128x128_S128x128_S256x128_d0 : Shape.Concatenates [S128x128, S128x128] S256x128 0
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  concatenates_S2000x128_S2000x128_S2000x256_d1 : Shape.Concatenates [S2000x128, S2000x128] S2000x256 1
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_call0_v18) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v8) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v19) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v20) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v30) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v8) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v20) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v31) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S50000, .f32⟩
  | .hbm, ⟨29, _⟩ => ⟨S600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x128, .f32⟩
  | .hbm, ⟨55, _⟩ => ⟨S_, .f32⟩
  | .hbm, ⟨56, _⟩ => ⟨S50000x128, .f32⟩
  | .hbm, ⟨57, _⟩ => ⟨S600000x1, .i32⟩
  | .hbm, ⟨58, _⟩ => ⟨S50000x128, .f32⟩
  | .hbm, ⟨59, _⟩ => ⟨S_, .f32⟩
  | .hbm, ⟨60, _⟩ => ⟨S600000, .f32⟩
  | .hbm, ⟨61, _⟩ => ⟨S_, .f32⟩
  | .hbm, ⟨62, _⟩ => ⟨S50000, .f32⟩
  | .hbm, ⟨63, _⟩ => ⟨S600000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its result named.

  The program is two launches of a row-blocked layer with stretches of whole-array operations before each. Its
  final memory holds, at every buffer that outlives the launches, the contents the last launch leaves; in
  particular the result buffer holds what the second launch's write-backs leave in it, and the eight argument
  arrays hold what they held at the start.
-/
import proofs.«136146_j27462020890936_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from a memory with zero counters terminates without a fault; the result buffer then
    holds the contents the second launch leaves (`W4` at the result), and the arguments are as launched. -/
theorem run_result : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Result

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.LibConcatCols.lean ====
/-
  Two matrices with the same number of rows laid side by side (a concatenation along axis 1), read at an
  entry: the entry in row `p` and column `c` of `[x₁ | x₂]` is `x₁ (p, c)` when `c` is a column of the first
  matrix, and `x₂ (p, c - n₁)` when it lies past the first matrix's `n₁` columns. General in the extents.
-/
import Idealize.ShloMosaic.Lib.Pipeline.Value
import Idealize.ShloMosaic.Lib.ValueIdx

namespace Idealize.ShloMosaic.ValueIdx

open Idealize.ShloMosaic

variable {α : Type}

/-- Row `p`, column `c` of `[x₁ | x₂]`, for a column `c` of the first matrix (`c = k < n₁`), is `x₁ (p, k)`. -/
theorem concatenate_cols_left {a n₁ n₂ N : Nat} (x₁ : (⟨2, ![a, n₁]⟩ : Shape).Idx → α) (x₂ : (⟨2, ![a, n₂]⟩ : Shape).Idx → α)
    (h : Shape.Concatenates [(⟨2, ![a, n₁]⟩ : Shape), (⟨2, ![a, n₂]⟩ : Shape)] (⟨2, ![a, N]⟩ : Shape) 1)
    (p : Fin a) (c : Fin N) (k : Fin n₁) (hc : c.val = k.val) :
    concatenate (⟨2, ![a, N]⟩ : Shape) 1 [⟨(⟨2, ![a, n₁]⟩ : Shape), x₁⟩, ⟨(⟨2, ![a, n₂]⟩ : Shape), x₂⟩] h (ix2 p c) = x₁ (ix2 p k) :=
  concatenate_pair_apply_left 1 x₁ x₂ h _ rfl _ (fun b => by
    match b with
    | ⟨0, _⟩ => rfl
    | ⟨1, _⟩ => exact hc.symm)

/-- Row `p`, column `c` of `[x₁ | x₂]`, for a column past the first matrix (`c = n₁ + k`), is `x₂ (p, k)`. -/
theorem concatenate_cols_right {a n₁ n₂ N : Nat} (x₁ : (⟨2, ![a, n₁]⟩ : Shape).Idx → α) (x₂ : (⟨2, ![a, n₂]⟩ : Shape).Idx → α)
    (h : Shape.Concatenates [(⟨2, ![a, n₁]⟩ : Shape), (⟨2, ![a, n₂]⟩ : Shape)] (⟨2, ![a, N]⟩ : Shape) 1)
    (p : Fin a) (c : Fin N) (k : Fin n₂) (hc : k.val + n₁ = c.val) :
    concatenate (⟨2, ![a, N]⟩ : Shape) 1 [⟨(⟨2, ![a, n₁]⟩ : Shape), x₁⟩, ⟨(⟨2, ![a, n₂]⟩ : Shape), x₂⟩] h (ix2 p c) = x₂ (ix2 p k) :=
  concatenate_pair_apply_right 1 x₁ x₂ h _ rfl rfl _
    (fun b hb => by
      match b with
      | ⟨0, _⟩ => rfl
      | ⟨1, _⟩ => exact absurd rfl hb)
    hc

end Idealize.ShloMosaic.ValueIdx
-- ==== Proof.LibGraphConv.lean ====
/-
  The dense half of a graph convolution on the extended reals, for any extents.

  A graph-convolution layer first adds up, for every node, the feature rows of its in-neighbours (the aggregate `a`)
  and then combines that aggregate with the node's own row `h`: entry (p, q) of the result is the dot product of row p
  of `a` with column q of one weight matrix, plus the dot product of row p of `h` with column q of a second weight
  matrix, plus a bias at q (stored as a 1 × `M` row). Only this combine is stated here; it does not depend on how the
  aggregate was made. The rectifier keeps the larger of an entry and the number the zero word of a 32-bit float denotes.

  Nothing here depends on a program. A block of rows and the whole array are the same definition at two numbers of
  rows, and the fact that joins them is that an entry of the combine depends on one row of each of `a` and `h`, one
  column of each weight matrix and one bias entry (`combine_congr`): a block of rows of the combine of two arrays is
  the combine of the same block of rows of the arrays.
-/
import Idealize.ShloMosaic.Lib.ValueIdx
import Idealize.ShloMosaic.PureOps.Ideal

noncomputable section

open scoped BigOperators

namespace Cert.GraphConv

open Idealize.ShloMosaic Idealize.ShloMosaic.ValueIdx

/-- The combine `a · wr + h · wo + b`: entry (p, q) is `(∑ k, a (p, k) · wr (k, q) + ∑ k, h (p, k) · wo (k, q)) + b (0, q)`,
    for `n` × `K` matrices `a` and `h`, `K` × `M` matrices `wr` and `wo` and a bias row `b` stored as a 1 × `M` matrix. The
    two products are added first and the bias last. -/
def combine {n K M : Nat} (a h : (⟨2, ![n, K]⟩ : Shape).Idx → EReal) (wr wo : (⟨2, ![K, M]⟩ : Shape).Idx → EReal)
    (b : (⟨2, ![1, M]⟩ : Shape).Idx → EReal) : (⟨2, ![n, M]⟩ : Shape).Idx → EReal :=
  fun i => ((∑ k : Fin K, a (ix2 (i 0) k) * wr (ix2 k (i 1))) + ∑ k : Fin K, h (ix2 (i 0) k) * wo (ix2 k (i 1)))
    + b (ix2 (0 : Fin 1) (i 1))

/-- The rectifier of a matrix, entry by entry: the larger of the entry and the value of the 32-bit zero word. -/
def rectify {n M : Nat} (x : (⟨2, ![n, M]⟩ : Shape).Idx → EReal) : (⟨2, ![n, M]⟩ : Shape).Idx → EReal :=
  fun i => max (x i) (Ideal.ofBits .f32 0x00000000#32)

/-- The combine at explicit coordinates. -/
theorem combine_apply {n K M : Nat} (a h : (⟨2, ![n, K]⟩ : Shape).Idx → EReal) (wr wo : (⟨2, ![K, M]⟩ : Shape).Idx → EReal)
    (b : (⟨2, ![1, M]⟩ : Shape).Idx → EReal) (p : Fin n) (q : Fin M) :
    combine a h wr wo b (ix2 p q)
      = ((∑ k : Fin K, a (ix2 p k) * wr (ix2 k q)) + ∑ k : Fin K, h (ix2 p k) * wo (ix2 k q)) + b (ix2 (0 : Fin 1) q) := rfl

/-- The rectifier at an index. -/
theorem rectify_apply {n M : Nat} (x : (⟨2, ![n, M]⟩ : Shape).Idx → EReal) (i : (⟨2, ![n, M]⟩ : Shape).Idx) :
    rectify x i = max (x i) (Ideal.ofBits .f32 0x00000000#32) := rfl

/-- An entry of a combine depends on one row of the aggregate, the same row of the node features, one column of each
    weight matrix and one bias entry: two combines, of matrices with any numbers of rows, agree at entries `i'` and `i`
    as soon as rows `i' 0` of one pair of inputs are rows `i 0` of the other pair, columns `i' 1` of one pair of weight
    matrices are columns `i 1` of the other, and the bias entries agree. -/
theorem combine_congr {n n' K M : Nat} (a h : (⟨2, ![n, K]⟩ : Shape).Idx → EReal) (wr wo : (⟨2, ![K, M]⟩ : Shape).Idx → EReal)
    (b : (⟨2, ![1, M]⟩ : Shape).Idx → EReal) (a' h' : (⟨2, ![n', K]⟩ : Shape).Idx → EReal)
    (wr' wo' : (⟨2, ![K, M]⟩ : Shape).Idx → EReal) (b' : (⟨2, ![1, M]⟩ : Shape).Idx → EReal)
    (i : (⟨2, ![n, M]⟩ : Shape).Idx) (i' : (⟨2, ![n', M]⟩ : Shape).Idx)
    (harow : ∀ k : Fin K, a' (ix2 (i' 0) k) = a (ix2 (i 0) k))
    (hhrow : ∀ k : Fin K, h' (ix2 (i' 0) k) = h (ix2 (i 0) k))
    (hrcol : ∀ k : Fin K, wr' (ix2 k (i' 1)) = wr (ix2 k (i 1)))
    (hocol : ∀ k : Fin K, wo' (ix2 k (i' 1)) = wo (ix2 k (i 1)))
    (hb : b' (ix2 (0 : Fin 1) (i' 1)) = b (ix2 (0 : Fin 1) (i 1))) :
    combine a' h' wr' wo' b' i' = combine a h wr wo b i := by
  have e1 : (∑ k : Fin K, a' (ix2 (i' 0) k) * wr' (ix2 k (i' 1))) = ∑ k : Fin K, a (ix2 (i 0) k) * wr (ix2 k (i 1)) :=
    Finset.sum_congr rfl fun k _ => by rw [harow k, hrcol k]
  have e2 : (∑ k : Fin K, h' (ix2 (i' 0) k) * wo' (ix2 k (i' 1))) = ∑ k : Fin K, h (ix2 (i 0) k) * wo (ix2 k (i 1)) :=
    Finset.sum_congr rfl fun k _ => by rw [hhrow k, hocol k]
  unfold combine
  rw [hb, e1, e2]

/-- The rectifier looks at one entry: rectified matrices agree where the matrices do. -/
theorem rectify_congr {n n' M : Nat} (x : (⟨2, ![n, M]⟩ : Shape).Idx → EReal) (x' : (⟨2, ![n', M]⟩ : Shape).Idx → EReal)
    (i : (⟨2, ![n, M]⟩ : Shape).Idx) (i' : (⟨2, ![n', M]⟩ : Shape).Idx) (hx : x' i' = x i) : rectify x' i' = rectify x i := by
  unfold rectify; rw [hx]

end Cert.GraphConv

end
-- ==== Proof.LibMeanLayer.lean ====
/-
  A graph layer that averages neighbour features, on the extended reals and for any extents.

  Every node p has a row of neighbour sums s(p, ·) and a degree d(p); its mean aggregate is the row divided, entry by
  entry, by the degree. The layer then combines the mean aggregate with the node's own row: entry (p, q) is the dot
  product of the mean row with column q of one weight matrix, plus the dot product of the node's row with column q of a
  second weight matrix, plus a bias at q, and the rectifier keeps the larger of that and zero. How the neighbour sums
  are formed from the node features is left as a parameter `nb`: nothing here looks inside it.

  Three small facts let two programs that spell this layer differently meet:
  * multiplying by the reciprocal 1/c is dividing by c as soon as c is not zero — at the infinities too, because the
    quotient is defined as the product with the inverse;
  * a degree clamped from below by one is not zero;
  * the bias may be added between the two products or after them: addition of extended reals is commutative and
    associative.
  No finiteness is used.
-/
import Idealize.ShloMosaic.Lib.ValueIdx
import Idealize.ShloMosaic.PureOps.Ideal
import Idealize.ShloMosaic.PureOps.Ideal.Laws
import proofs.«136146_j27462020890936_2_alg».proof.Proof.LibGraphConv

noncomputable section

open scoped BigOperators

namespace Cert.MeanLayer

open Idealize.ShloMosaic Idealize.ShloMosaic.ValueIdx Cert.GraphConv

/-- The word of the 32-bit float 1.0 denotes the number one. -/
theorem one_f32 : Ideal.ofBits .f32 0x3F800000#32 = 1 := by
  simp [Ideal.ofBits, Ideal.ieee]
  exact_mod_cast (by norm_num : (8388608 : ℝ) * ((2 : ℝ) ^ 23)⁻¹ = 1)

/-- A number clamped from below by the float one is not zero. -/
theorem max_one_ne_zero (x : EReal) : max x (Ideal.ofBits .f32 0x3F800000#32) ≠ 0 := by
  rw [one_f32]
  exact ne_of_gt (lt_of_lt_of_le zero_lt_one (le_max_right x 1))

/-- The product with the reciprocal of a nonzero `c` is the quotient by `c`, for every extended real `a`. -/
theorem mul_one_div (a c : EReal) (hc : c ≠ 0) :
    a * Ideal.div (Ideal.ofBits .f32 0x3F800000#32) c = Ideal.div a c := by
  rw [one_f32]
  unfold Ideal.div
  rw [if_neg hc, if_neg hc, one_mul]

/-- The rows of `s` divided by the row's degree: entry (p, k) is `s (p, k) / d p`. -/
def meanRows {N K : Nat} (s : (⟨2, ![N, K]⟩ : Shape).Idx → EReal) (d : (⟨1, ![N]⟩ : Shape).Idx → EReal) :
    (⟨2, ![N, K]⟩ : Shape).Idx → EReal :=
  fun i => Ideal.div (s i) (d (ix1 (i 0)))

theorem meanRows_apply {N K : Nat} (s : (⟨2, ![N, K]⟩ : Shape).Idx → EReal) (d : (⟨1, ![N]⟩ : Shape).Idx → EReal)
    (p : Fin N) (k : Fin K) : meanRows s d (ix2 p k) = Ideal.div (s (ix2 p k)) (d (ix1 p)) := rfl

/-- The layer: the rectified combine of the mean aggregate of `nb x` with `x` itself. -/
def layer {N K M : Nat} (nb : ((⟨2, ![N, K]⟩ : Shape).Idx → EReal) → (⟨2, ![N, K]⟩ : Shape).Idx → EReal)
    (d : (⟨1, ![N]⟩ : Shape).Idx → EReal) (x : (⟨2, ![N, K]⟩ : Shape).Idx → EReal)
    (wl wr : (⟨2, ![K, M]⟩ : Shape).Idx → EReal) (b : (⟨2, ![1, M]⟩ : Shape).Idx → EReal) :
    (⟨2, ![N, M]⟩ : Shape).Idx → EReal :=
  rectify (combine (meanRows (nb x) d) x wl wr b)

/-- The layer at explicit coordinates, the bias added after the two products. -/
theorem layer_apply {N K M : Nat} (nb : ((⟨2, ![N, K]⟩ : Shape).Idx → EReal) → (⟨2, ![N, K]⟩ : Shape).Idx → EReal)
    (d : (⟨1, ![N]⟩ : Shape).Idx → EReal) (x : (⟨2, ![N, K]⟩ : Shape).Idx → EReal)
    (wl wr : (⟨2, ![K, M]⟩ : Shape).Idx → EReal) (b : (⟨2, ![1, M]⟩ : Shape).Idx → EReal) (p : Fin N) (q : Fin M) :
    layer nb d x wl wr b (ix2 p q)
      = max (((∑ k : Fin K, Ideal.div (nb x (ix2 p k)) (d (ix1 p)) * wl (ix2 k q)) + ∑ k : Fin K, x (ix2 p k) * wr (ix2 k q))
          + b (ix2 (0 : Fin 1) q)) (Ideal.ofBits .f32 0x00000000#32) := rfl

/-- The same entry with the bias added between the two products. -/
theorem layer_apply_bias_between {N K M : Nat}
    (nb : ((⟨2, ![N, K]⟩ : Shape).Idx → EReal) → (⟨2, ![N, K]⟩ : Shape).Idx → EReal)
    (d : (⟨1, ![N]⟩ : Shape).Idx → EReal) (x : (⟨2, ![N, K]⟩ : Shape).Idx → EReal)
    (wl wr : (⟨2, ![K, M]⟩ : Shape).Idx → EReal) (b : (⟨2, ![1, M]⟩ : Shape).Idx → EReal) (p : Fin N) (q : Fin M) :
    max (((∑ k : Fin K, Ideal.div (nb x (ix2 p k)) (d (ix1 p)) * wl (ix2 k q)) + b (ix2 (0 : Fin 1) q))
          + ∑ k : Fin K, x (ix2 p k) * wr (ix2 k q)) (Ideal.ofBits .f32 0x00000000#32)
      = layer nb d x wl wr b (ix2 p q) := by
  rw [layer_apply, add_right_comm]

end Cert.MeanLayer

end
-- ==== Proof.LibFusedLayer.lean ====
/-
  Two mean-aggregating graph layers, one feeding the next, on the extended reals and for any extents, and the
  fused spelling of one such layer.

  A layer takes, for every node p, the row of neighbour sums s(p, ·) made from the node features by a map `nb` that
  is left as a parameter, divides it entry by entry by the node's degree clamped from below by one, and adds three
  things: the dot product of that mean row with column q of a first weight matrix, the dot product of the node's own
  row with column q of a second weight matrix, and a bias at q. The first layer is rectified and its result is the
  node-feature matrix of the second, which is not rectified. (So the feature width and the output width are one
  number K.)

  The fused spelling lays the mean row and the node's own row side by side as one row of 2K entries, stacks the two
  weight matrices as one matrix of 2K rows, and takes ONE dot product. A sum over 2K positions is the sum over the
  first K plus the sum over the last K, so the fused entry is the sum of the two dot products; nothing about the
  summands is used. Commutativity and associativity of addition on the extended reals are the only laws needed,
  and no entry has to be finite.
-/
import Idealize.ShloMosaic.Lib.ValueIdx
import Idealize.ShloMosaic.PureOps.Ideal
import proofs.«136146_j27462020890936_2_alg».proof.Proof.LibGraphConv
import proofs.«136146_j27462020890936_2_alg».proof.Proof.LibMeanLayer

noncomputable section

open scoped BigOperators

namespace Cert.SageNet

open Idealize.ShloMosaic Idealize.ShloMosaic.ValueIdx Cert.GraphConv Cert.MeanLayer

/-- A bias vector read as the one row of a 1 × `M` matrix. -/
def biasRow {M : Nat} (b : (⟨1, ![M]⟩ : Shape).Idx → EReal) : (⟨2, ![1, M]⟩ : Shape).Idx → EReal :=
  fun i => b (ix1 (i 1))

/-- A vector of degrees clamped from below by the float one. -/
def clamp {N : Nat} (cnt : (⟨1, ![N]⟩ : Shape).Idx → EReal) : (⟨1, ![N]⟩ : Shape).Idx → EReal :=
  fun i => max (cnt i) (Ideal.ofBits .f32 0x3F800000#32)

/-- One layer without the rectifier: the combine of the mean aggregate of `nb x` with `x` itself. -/
def plain {N K M : Nat} (nb : ((⟨2, ![N, K]⟩ : Shape).Idx → EReal) → (⟨2, ![N, K]⟩ : Shape).Idx → EReal)
    (d : (⟨1, ![N]⟩ : Shape).Idx → EReal) (x : (⟨2, ![N, K]⟩ : Shape).Idx → EReal)
    (wl wr : (⟨2, ![K, M]⟩ : Shape).Idx → EReal) (b : (⟨2, ![1, M]⟩ : Shape).Idx → EReal) :
    (⟨2, ![N, M]⟩ : Shape).Idx → EReal :=
  combine (meanRows (nb x) d) x wl wr b

/-- The unrectified layer at explicit coordinates, the bias added after the two products. -/
theorem plain_apply {N K M : Nat} (nb : ((⟨2, ![N, K]⟩ : Shape).Idx → EReal) → (⟨2, ![N, K]⟩ : Shape).Idx → EReal)
    (d : (⟨1, ![N]⟩ : Shape).Idx → EReal) (x : (⟨2, ![N, K]⟩ : Shape).Idx → EReal)
    (wl wr : (⟨2, ![K, M]⟩ : Shape).Idx → EReal) (b : (⟨2, ![1, M]⟩ : Shape).Idx → EReal) (p : Fin N) (q : Fin M) :
    plain nb d x wl wr b (ix2 p q)
      = ((∑ k : Fin K, Ideal.div (nb x (ix2 p k)) (d (ix1 p)) * wl (ix2 k q)) + ∑ k : Fin K, x (ix2 p k) * wr (ix2 k q))
          + b (ix2 (0 : Fin 1) q) := rfl

/-- The same entry with the bias added between the two products. -/
theorem plain_apply_bias_between {N K M : Nat}
    (nb : ((⟨2, ![N, K]⟩ : Shape).Idx → EReal) → (⟨2, ![N, K]⟩ : Shape).Idx → EReal)
    (d : (⟨1, ![N]⟩ : Shape).Idx → EReal) (x : (⟨2, ![N, K]⟩ : Shape).Idx → EReal)
    (wl wr : (⟨2, ![K, M]⟩ : Shape).Idx → EReal) (b : (⟨2, ![1, M]⟩ : Shape).Idx → EReal) (p : Fin N) (q : Fin M) :
    ((∑ k : Fin K, Ideal.div (nb x (ix2 p k)) (d (ix1 p)) * wl (ix2 k q)) + b (ix2 (0 : Fin 1) q))
          + ∑ k : Fin K, x (ix2 p k) * wr (ix2 k q)
      = plain nb d x wl wr b (ix2 p q) := by
  rw [plain_apply, add_right_comm]

/-- The two layers: the rectified one, then the unrectified one on its result. -/
def net {N K : Nat} (nb : ((⟨2, ![N, K]⟩ : Shape).Idx → EReal) → (⟨2, ![N, K]⟩ : Shape).Idx → EReal)
    (d : (⟨1, ![N]⟩ : Shape).Idx → EReal) (x : (⟨2, ![N, K]⟩ : Shape).Idx → EReal)
    (w1l w1r : (⟨2, ![K, K]⟩ : Shape).Idx → EReal) (b1 : (⟨2, ![1, K]⟩ : Shape).Idx → EReal)
    (w2l w2r : (⟨2, ![K, K]⟩ : Shape).Idx → EReal) (b2 : (⟨2, ![1, K]⟩ : Shape).Idx → EReal) :
    (⟨2, ![N, K]⟩ : Shape).Idx → EReal :=
  plain nb d (layer nb d x w1l w1r b1) w2l w2r b2

/-! ## The fused spelling -/

/-- A sum over 2K positions of products, the factors given on the first K and on the last K positions. -/
theorem sum_halves {K : Nat} (c w : Fin (K + K) → EReal) (f g wl wr : Fin K → EReal)
    (hcl : ∀ k, c (Fin.castAdd K k) = f k) (hcr : ∀ k, c (Fin.natAdd K k) = g k)
    (hwl : ∀ k, w (Fin.castAdd K k) = wl k) (hwr : ∀ k, w (Fin.natAdd K k) = wr k) :
    ∑ k, c k * w k = (∑ k, f k * wl k) + ∑ k, g k * wr k := by
  rw [Fin.sum_univ_add]
  simp only [hcl, hcr, hwl, hwr]

/-- One layer as the fused spelling computes it, before the rectifier: for `n` rows of neighbour sums `s` and of node
    features `x`, a column `cnt` of raw degrees, the stacked weights `wc` (2K rows) and a bias vector `b`. The mean
    row is the row of `s` divided by the degree clamped from below by one. -/
def fused {n K M : Nat} (s x : (⟨2, ![n, K]⟩ : Shape).Idx → EReal) (cnt : (⟨2, ![n, 1]⟩ : Shape).Idx → EReal)
    (wc : (⟨2, ![K + K, M]⟩ : Shape).Idx → EReal) (b : (⟨1, ![M]⟩ : Shape).Idx → EReal) :
    (⟨2, ![n, M]⟩ : Shape).Idx → EReal :=
  fun i => ((∑ k : Fin K, Ideal.div (s (ix2 (i 0) k)) (max (cnt (ix2 (i 0) (0 : Fin 1))) (Ideal.ofBits .f32 0x3F800000#32))
        * wc (ix2 (Fin.castAdd K k) (i 1)))
      + ∑ k : Fin K, x (ix2 (i 0) k) * wc (ix2 (Fin.natAdd K k) (i 1))) + b (ix1 (i 1))

/-- The fused layer at explicit coordinates. -/
theorem fused_apply {n K M : Nat} (s x : (⟨2, ![n, K]⟩ : Shape).Idx → EReal) (cnt : (⟨2, ![n, 1]⟩ : Shape).Idx → EReal)
    (wc : (⟨2, ![K + K, M]⟩ : Shape).Idx → EReal) (b : (⟨1, ![M]⟩ : Shape).Idx → EReal) (p : Fin n) (q : Fin M) :
    fused s x cnt wc b (ix2 p q)
      = ((∑ k : Fin K, Ideal.div (s (ix2 p k)) (max (cnt (ix2 p (0 : Fin 1))) (Ideal.ofBits .f32 0x3F800000#32))
            * wc (ix2 (Fin.castAdd K k) q))
          + ∑ k : Fin K, x (ix2 p k) * wc (ix2 (Fin.natAdd K k) q)) + b (ix1 q) := rfl

/-- The fused layer's entry depends on one row of the neighbour sums, of the node features and of the degrees: two
    fused layers over matrices with any numbers of rows, the same weights and the same bias, agree at entries `i'` and
    `i` with the same column as soon as rows `i' 0` of one triple are rows `i 0` of the other. -/
theorem fused_congr {n n' K M : Nat} (s x : (⟨2, ![n, K]⟩ : Shape).Idx → EReal) (cnt : (⟨2, ![n, 1]⟩ : Shape).Idx → EReal)
    (s' x' : (⟨2, ![n', K]⟩ : Shape).Idx → EReal) (cnt' : (⟨2, ![n', 1]⟩ : Shape).Idx → EReal)
    (wc : (⟨2, ![K + K, M]⟩ : Shape).Idx → EReal) (b : (⟨1, ![M]⟩ : Shape).Idx → EReal)
    (i : (⟨2, ![n, M]⟩ : Shape).Idx) (i' : (⟨2, ![n', M]⟩ : Shape).Idx)
    (hs : ∀ k : Fin K, s' (ix2 (i' 0) k) = s (ix2 (i 0) k))
    (hx : ∀ k : Fin K, x' (ix2 (i' 0) k) = x (ix2 (i 0) k))
    (hc : cnt' (ix2 (i' 0) (0 : Fin 1)) = cnt (ix2 (i 0) (0 : Fin 1)))
    (hq : i' 1 = i 1) :
    fused s' x' cnt' wc b i' = fused s x cnt wc b i := by
  unfold fused
  simp only [hs, hx, hc, hq]

/-- The fused layer is the unrectified layer, when the stacked weights are the first matrix on top of the second, the
    degree column holds the degrees, and the neighbour sums are `nb x`. -/
theorem fused_eq_plain {N K M : Nat} (nb : ((⟨2, ![N, K]⟩ : Shape).Idx → EReal) → (⟨2, ![N, K]⟩ : Shape).Idx → EReal)
    (c : (⟨1, ![N]⟩ : Shape).Idx → EReal) (x : (⟨2, ![N, K]⟩ : Shape).Idx → EReal)
    (wl wr : (⟨2, ![K, M]⟩ : Shape).Idx → EReal) (b : (⟨1, ![M]⟩ : Shape).Idx → EReal)
    (cnt : (⟨2, ![N, 1]⟩ : Shape).Idx → EReal) (wc : (⟨2, ![K + K, M]⟩ : Shape).Idx → EReal)
    (hcnt : ∀ p : Fin N, cnt (ix2 p (0 : Fin 1)) = c (ix1 p))
    (hwl : ∀ (k : Fin K) (q : Fin M), wc (ix2 (Fin.castAdd K k) q) = wl (ix2 k q))
    (hwr : ∀ (k : Fin K) (q : Fin M), wc (ix2 (Fin.natAdd K k) q) = wr (ix2 k q)) :
    fused (nb x) x cnt wc b = plain nb (clamp c) x wl wr (biasRow b) := by
  funext i
  obtain ⟨p, q, rfl⟩ : ∃ (p : Fin N) (q : Fin M), i = ix2 p q := ⟨i 0, i 1, eq_ix2 i⟩
  rw [plain_apply, fused_apply]
  show _ = ((∑ k : Fin K, Ideal.div (nb x (ix2 p k)) (max (c (ix1 p)) (Ideal.ofBits .f32 0x3F800000#32)) * wl (ix2 k q))
      + ∑ k : Fin K, x (ix2 p k) * wr (ix2 k q)) + b (ix1 q)
  simp only [hcnt, hwl, hwr]

/-- Rectifying the fused layer gives the rectified layer, under the same three readings. -/
theorem rectify_fused_eq_layer {N K M : Nat}
    (nb : ((⟨2, ![N, K]⟩ : Shape).Idx → EReal) → (⟨2, ![N, K]⟩ : Shape).Idx → EReal)
    (c : (⟨1, ![N]⟩ : Shape).Idx → EReal) (x : (⟨2, ![N, K]⟩ : Shape).Idx → EReal)
    (wl wr : (⟨2, ![K, M]⟩ : Shape).Idx → EReal) (b : (⟨1, ![M]⟩ : Shape).Idx → EReal)
    (cnt : (⟨2, ![N, 1]⟩ : Shape).Idx → EReal) (wc : (⟨2, ![K + K, M]⟩ : Shape).Idx → EReal)
    (hcnt : ∀ p : Fin N, cnt (ix2 p (0 : Fin 1)) = c (ix1 p))
    (hwl : ∀ (k : Fin K) (q : Fin M), wc (ix2 (Fin.castAdd K k) q) = wl (ix2 k q))
    (hwr : ∀ (k : Fin K) (q : Fin M), wc (ix2 (Fin.natAdd K k) q) = wr (ix2 k q)) :
    rectify (fused (nb x) x cnt wc b) = layer nb (clamp c) x wl wr (biasRow b) := by
  rw [fused_eq_plain nb c x wl wr b cnt wc hcnt hwl hwr]
  rfl

end Cert.SageNet

end
-- ==== Proof.Body.lean ====
/-
  What one launch stores for a block of 2000 nodes, entry by entry.

  The launch's body takes a block of neighbour sums, the matching column of raw degrees, the matching block of node
  features, the two weight matrices stacked as one matrix of 256 rows, and a bias vector. It clamps the degrees from
  below by one, multiplies every row of neighbour sums by the reciprocal of its clamped degree, lays that mean row
  beside the node's own row as one row of 256 entries, rounds, takes ONE matrix product with the stacked weights into a
  zero accumulator, adds the bias to every row and (first launch only) keeps the larger of each entry and zero.

  On the extended reals a change of float format is the identity, the product into a zero accumulator is the plain sum
  over the 256 positions, and the product with the reciprocal of a nonzero number is the quotient by it; the sum over
  256 positions splits into the first 128 (the mean row against the first weight matrix) and the last 128 (the node's row
  against the second). So the stored block is the fused layer of the loaded blocks.
-/
import proofs.«136146_j27462020890936_2_alg».proof.Proof.Gen.KernelIdeal.Skeleton
import proofs.«136146_j27462020890936_2_alg».proof.Proof.LibColumns
import proofs.«136146_j27462020890936_2_alg».proof.Proof.LibPlainDot
import proofs.«136146_j27462020890936_2_alg».proof.Proof.LibConcatCols
import proofs.«136146_j27462020890936_2_alg».proof.Proof.LibMeanLayer
import proofs.«136146_j27462020890936_2_alg».proof.Proof.LibFusedLayer
import Idealize.ShloMosaic.Lib.ValueLayout
import Idealize.ShloMosaic.Lib.ValueIdx
import Idealize.ShloMosaic.Lib.Pipeline.Value

noncomputable section

open scoped BigOperators

namespace Cert.KernelIdeal.Body

open Cert.KernelIdeal Cert.KernelIdeal.Gen Idealize.ShloMosaic Idealize.ShloMosaic.ValueIdx

theorem dot_l0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem dot_l1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem dot_r0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem dot_r1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The mean row beside the node's own row: a position of the first half holds the neighbour sum divided by the
    degree clamped from below by one (the product with the reciprocal of a nonzero number is the quotient). -/
theorem cat_left (v0 : Vec Ideal S2000x1 .f32) (v6 v10 : Vec Ideal S2000x128 .f32) (p : Fin 2000) (k : Fin 128) :
    (truncf FTy.bf16
            (concatenate S2000x256 1
              [⟨S2000x128,
                  mulf v6
                    (broadcastTo S2000x128
                      (divf (broadcast S2000x1 (FloatOps.ofBits FTy.f32 0x3F800000#32))
                        (maximumf v0 (broadcast S2000x1 (FloatOps.ofBits FTy.f32 0x3F800000#32))))
                      broadcasts_S2000x1_S2000x128)⟩,
                ⟨S2000x128, v10⟩]
              concatenates_S2000x128_S2000x128_S2000x256_d1)
            bitsLt_bf16_f32 : FVec Ideal S2000x256 .bf16) (ix2 p (Fin.castAdd 128 k))
      = Ideal.div (v6 (ix2 p k)) (max (v0 (ix2 p (0 : Fin 1))) (Ideal.ofBits .f32 0x3F800000#32)) := by
  rw [truncf_apply, concatenate_cols_left _ _ _ p (Fin.castAdd 128 k) k rfl, mulf_apply,
    Cert.LibColumns.broadcastTo_a1_ab_apply, divf_apply, broadcast_apply, maximumf_apply, broadcast_apply]
  exact Cert.MeanLayer.mul_one_div _ _ (Cert.MeanLayer.max_one_ne_zero _)

/-- A position of the second half holds the node's own entry. -/
theorem cat_right (v0 : Vec Ideal S2000x1 .f32) (v6 v10 : Vec Ideal S2000x128 .f32) (p : Fin 2000) (k : Fin 128) :
    (truncf FTy.bf16
            (concatenate S2000x256 1
              [⟨S2000x128,
                  mulf v6
                    (broadcastTo S2000x128
                      (divf (broadcast S2000x1 (FloatOps.ofBits FTy.f32 0x3F800000#32))
                        (maximumf v0 (broadcast S2000x1 (FloatOps.ofBits FTy.f32 0x3F800000#32))))
                      broadcasts_S2000x1_S2000x128)⟩,
                ⟨S2000x128, v10⟩]
              concatenates_S2000x128_S2000x128_S2000x256_d1)
            bitsLt_bf16_f32 : FVec Ideal S2000x256 .bf16) (ix2 p (Fin.natAdd 128 k)) = v10 (ix2 p k) := by
  rw [truncf_apply, concatenate_cols_right _ _ _ p (Fin.natAdd 128 k) k (Nat.add_comm _ _)]

/-- The layer before the rectifier, as the vector operations spell it (one product of the joined rows with the
    stacked weights into a zero accumulator, plus the bias spread over the rows), is the fused layer. -/
theorem core_apply (v0 : Vec Ideal S2000x1 .f32) (v6 v10 : Vec Ideal S2000x128 .f32) (v13 : Vec Ideal S256x128 .f32)
    (v17 : Vec Ideal S128 .f32) (p : Fin 2000) (q : Fin 128) :
    addf (matmul dot_S2000x256_S256x128_S2000x128_1_0_0_1_n_n none
          (truncf FTy.bf16
            (concatenate S2000x256 1
              [⟨S2000x128,
                  mulf v6
                    (broadcastTo S2000x128
                      (divf (broadcast S2000x1 (FloatOps.ofBits FTy.f32 0x3F800000#32))
                        (maximumf v0 (broadcast S2000x1 (FloatOps.ofBits FTy.f32 0x3F800000#32))))
                      broadcasts_S2000x1_S2000x128)⟩,
                ⟨S2000x128, v10⟩]
              concatenates_S2000x128_S2000x128_S2000x256_d1)
            bitsLt_bf16_f32 : FVec Ideal S2000x256 .bf16)
          (truncf FTy.bf16 v13 bitsLt_bf16_f32) (constant S2000x128 FTy.f32 0#32))
        (broadcastTo S2000x128 (shapeCast S1x128 v17 shapeCasts_S128_S1x128) broadcasts_S1x128_S2000x128) (ix2 p q)
      = Cert.SageNet.fused (K := 128) v6 v10 v0 v13 v17 (ix2 p q) := by
  rw [addf_apply, broadcastTo_1b_ab_apply, shapeCast_a_1a_apply, Cert.SageNet.fused_apply]
  refine congrArg (· + v17 (ix1 q))
    ((Cert.PlainDot.matmul_zero_apply dot_S2000x256_S256x128_S2000x128_1_0_0_1_n_n rfl rfl dot_l0 dot_l1 dot_r0 dot_r1 none _ _ p q).trans ?_)
  exact Cert.SageNet.sum_halves (K := 128)
    (fun k : Fin 256 => (truncf FTy.bf16
            (concatenate S2000x256 1
              [⟨S2000x128,
                  mulf v6
                    (broadcastTo S2000x128
                      (divf (broadcast S2000x1 (FloatOps.ofBits FTy.f32 0x3F800000#32))
                        (maximumf v0 (broadcast S2000x1 (FloatOps.ofBits FTy.f32 0x3F800000#32))))
                      broadcasts_S2000x1_S2000x128)⟩,
                ⟨S2000x128, v10⟩]
              concatenates_S2000x128_S2000x128_S2000x256_d1)
            bitsLt_bf16_f32 : FVec Ideal S2000x256 .bf16) (ix2 p k))
    (fun k : Fin 256 => (truncf FTy.bf16 v13 bitsLt_bf16_f32 : FVec Ideal S256x128 .bf16) (ix2 k q)) _ _ _ _
    (fun k => cat_left v0 v6 v10 p k) (fun k => cat_right v0 v6 v10 p k) (fun _ => rfl) (fun _ => rfl)

/-- The first launch's stored entry (p, q): the fused layer's entry, rectified. -/
theorem pay0_apply (v0 : Vec Ideal S2000x1 .f32) (v6 v10 : Vec Ideal S2000x128 .f32) (v13 : Vec Ideal S256x128 .f32)
    (v17 : Vec Ideal S128 .f32) (p : Fin 2000) (q : Fin 128) :
    k0_pay1 (F := Ideal) v0 v6 v10 v13 v17 (ix2 p q)
      = Cert.GraphConv.rectify (Cert.SageNet.fused (n := 2000) (K := 128) (M := 128) v6 v10 v0 v13 v17) (ix2 p q) := by
  unfold k0_pay1
  rw [shapeCast_self v6, shapeCast_self v0, shapeCast_self v13]
  rw [maximumf_apply, broadcast_apply, Cert.GraphConv.rectify_apply]
  exact congrArg (fun z => max z (Ideal.ofBits .f32 0x00000000#32)) (core_apply v0 v6 v10 v13 v17 p q)

/-- The second launch's stored entry (p, q): the fused layer's entry. -/
theorem pay1_apply (v0 : Vec Ideal S2000x1 .f32) (v6 v10 : Vec Ideal S2000x128 .f32) (v14 : Vec Ideal S256x128 .f32)
    (v18 : Vec Ideal S128 .f32) (p : Fin 2000) (q : Fin 128) :
    k1_pay1 (F := Ideal) v0 v6 v10 v14 v18 (ix2 p q)
      = Cert.SageNet.fused (n := 2000) (K := 128) (M := 128) v6 v10 v0 v14 v18 (ix2 p q) := by
  unfold k1_pay1
  rw [shapeCast_self v6, shapeCast_self v0, shapeCast_self v10, shapeCast_self v14]
  exact core_apply v0 v6 v10 v14 v18 p q

/-- The first launch stores the rectified fused layer of its loaded blocks. -/
theorem pay0_eq (v0 : Vec Ideal S2000x1 .f32) (v6 v10 : Vec Ideal S2000x128 .f32) (v13 : Vec Ideal S256x128 .f32)
    (v17 : Vec Ideal S128 .f32) :
    k0_pay1 (F := Ideal) v0 v6 v10 v13 v17
      = Cert.GraphConv.rectify (Cert.SageNet.fused (n := 2000) (K := 128) (M := 128) v6 v10 v0 v13 v17) := by
  funext j
  obtain ⟨p, q, rfl⟩ : ∃ (p : Fin 2000) (q : Fin 128), j = ix2 p q := ⟨j 0, j 1, eq_ix2 j⟩
  exact pay0_apply v0 v6 v10 v13 v17 p q

/-- The second launch stores the fused layer of its loaded blocks, unrectified. -/
theorem pay1_eq (v0 : Vec Ideal S2000x1 .f32) (v6 v10 : Vec Ideal S2000x128 .f32) (v14 : Vec Ideal S256x128 .f32)
    (v18 : Vec Ideal S128 .f32) :
    k1_pay1 (F := Ideal) v0 v6 v10 v14 v18
      = Cert.SageNet.fused (n := 2000) (K := 128) (M := 128) v6 v10 v0 v14 v18 := by
  funext j
  obtain ⟨p, q, rfl⟩ : ∃ (p : Fin 2000) (q : Fin 128), j = ix2 p q := ⟨j 0, j 1, eq_ix2 j⟩
  exact pay1_apply v0 v6 v10 v14 v18 p q

/-- The first launch's stored entry `j` is entry `i` of the rectified fused layer of whole arrays, as soon as row `j 0` of
    each loaded block is row `i 0` of its array, the weights and the bias are the arrays', and the columns agree. -/
theorem pay0_at (v0 : Vec Ideal S2000x1 .f32) (v6 v10 : Vec Ideal S2000x128 .f32) (v13 : Vec Ideal S256x128 .f32)
    (v17 : Vec Ideal S128 .f32) (As Ax : S50000x128.Idx → EReal) (Ac : S50000x1.Idx → EReal)
    (Aw : S256x128.Idx → EReal) (Ab : S128.Idx → EReal) (j : S2000x128.Idx) (i : S50000x128.Idx)
    (hs : ∀ k : Fin 128, v6 (ix2 (j 0) k) = As (ix2 (i 0) k))
    (hx : ∀ k : Fin 128, v10 (ix2 (j 0) k) = Ax (ix2 (i 0) k))
    (hc : v0 (ix2 (j 0) (0 : Fin 1)) = Ac (ix2 (i 0) (0 : Fin 1)))
    (hw : v13 = Aw) (hb : v17 = Ab) (hq : j 1 = i 1) :
    k0_pay1 (F := Ideal) v0 v6 v10 v13 v17 j
      = Cert.GraphConv.rectify (Cert.SageNet.fused (n := 50000) (K := 128) (M := 128) As Ax Ac Aw Ab) i := by
  subst hw hb
  rw [pay0_eq]
  exact Cert.GraphConv.rectify_congr _ _ i j (Cert.SageNet.fused_congr As Ax Ac v6 v10 v0 v13 v17 i j hs hx hc hq)

/-- The same for the second launch, unrectified. -/
theorem pay1_at (v0 : Vec Ideal S2000x1 .f32) (v6 v10 : Vec Ideal S2000x128 .f32) (v14 : Vec Ideal S256x128 .f32)
    (v18 : Vec Ideal S128 .f32) (As Ax : S50000x128.Idx → EReal) (Ac : S50000x1.Idx → EReal)
    (Aw : S256x128.Idx → EReal) (Ab : S128.Idx → EReal) (j : S2000x128.Idx) (i : S50000x128.Idx)
    (hs : ∀ k : Fin 128, v6 (ix2 (j 0) k) = As (ix2 (i 0) k))
    (hx : ∀ k : Fin 128, v10 (ix2 (j 0) k) = Ax (ix2 (i 0) k))
    (hc : v0 (ix2 (j 0) (0 : Fin 1)) = Ac (ix2 (i 0) (0 : Fin 1)))
    (hw : v14 = Aw) (hb : v18 = Ab) (hq : j 1 = i 1) :
    k1_pay1 (F := Ideal) v0 v6 v10 v14 v18 j
      = Cert.SageNet.fused (n := 50000) (K := 128) (M := 128) As Ax Ac Aw Ab i := by
  subst hw hb
  rw [pay1_eq]
  exact Cert.SageNet.fused_congr As Ax Ac v6 v10 v0 v14 v18 i j hs hx hc hq

end Cert.KernelIdeal.Body

end
-- ==== Proof.Blocks.lean ====
/-
  From blocks to arrays: what each launch leaves in its result array.

  A launch walks 25 grid points; at point t it stages rows 2000 t to 2000 t + 1999 of the neighbour sums, of the degree
  column and of the node features, the whole stacked weight matrix and the whole bias vector, runs the body, and writes
  its 2000 result rows back to the same rows of the result array. An entry of the fused layer depends on one row of
  the three row-blocked operands and on the whole weights and bias, so what point t writes is exactly rows 2000 t … of
  the fused layer of the WHOLE arrays; the 25 blocks cover the 50000 rows (row r lies in block r / 2000), so the
  result array ends as the fused layer of the arrays the launch found — rectified for the first launch, plain for the
  second. The arrays the launch finds are a parameter here.
-/
import proofs.«136146_j27462020890936_2_alg».proof.Proof.Gen.KernelIdeal.Frame
import proofs.«136146_j27462020890936_2_alg».proof.Proof.Body
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The first launch -/

/-- What the first launch's result array ends holding, as one function of the arrays the launch finds: the
    rectified fused layer of the neighbour sums, the node features, the degree column, the stacked weights and the bias. -/
def G0 (c : Dev nD) : S50000x128.Idx → EReal :=
  Cert.GraphConv.rectify (Cert.SageNet.fused (n := 50000) (K := 128) (M := 128) (V c main_call0_v18) (V c main_arg0) (V c main_call0_v8) (V c main_call0_v19) (V c main_arg3))

/-- The windows' index maps over the 25 grid points: the row-blocked windows sit at block row `t`, the weights and the
    bias at block zero. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- What point `t` writes back is block `t` of `G0`: rows 2000 t to 2000 t + 1999, each a function of the same
    row of the neighbour sums, the features and the degrees, and of the whole weights and bias. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz2]
  simp only [View.ld_unit_zero (S := S2000x1) hz2, View.ld_unit_zero (S := S2000x128) hz2,
    View.ld_unit_zero (S := S256x128) hz2, View.ld_unit_zero (S := S128) hz1]
  obtain ⟨e00, e01, e10, e11, e20, e21, e30, e31, e40, e50, e51⟩ := idx_facts0 t
  funext j
  have hj0 : (j 0).val < 2000 := (j 0).isLt
  have hj1 : (j 1).val < 128 := (j 1).isLt
  show k0_pay1 (iblk0 V c 1 t) (iblk0 V c 0 t) (iblk0 V c 2 t) (iblk0 V c 3 t) (iblk0 V c 4 t) j
    = G0 V c (((cfg0.win 5).blk t).view.emb j)
  refine Body.pay0_at (iblk0 V c 1 t) (iblk0 V c 0 t) (iblk0 V c 2 t) (iblk0 V c 3 t) (iblk0 V c 4 t)
    (V c main_call0_v18) (V c main_arg0) (V c main_call0_v8) (V c main_call0_v19) (V c main_arg3) j
    (((cfg0.win 5).blk t).view.emb j) ?_ ?_ ?_ ?_ ?_ ?_
  · intro k
    have hk : k.val < 128 := k.isLt
    show V c main_call0_v18 (((cfg0.win 0).blk t).view.emb (ix2 (j 0) k))
      = V c main_call0_v18 (ix2 ((((cfg0.win 5).blk t).view.emb j) 0) k)
    refine congrArg _ (funext fun a => Fin.ext ?_)
    match a with
    | ⟨0, _⟩ =>
      show win0_0.index t (0 : Fin 2) * 2000 + 1 * (j 0).val = win0_5.index t (0 : Fin 2) * 2000 + 1 * (j 0).val
      omega
    | ⟨1, _⟩ =>
      show win0_0.index t (1 : Fin 2) * 128 + 1 * k.val = k.val
      omega
  · intro k
    have hk : k.val < 128 := k.isLt
    show V c main_arg0 (((cfg0.win 2).blk t).view.emb (ix2 (j 0) k))
      = V c main_arg0 (ix2 ((((cfg0.win 5).blk t).view.emb j) 0) k)
    refine congrArg _ (funext fun a => Fin.ext ?_)
    match a with
    | ⟨0, _⟩ =>
      show win0_2.index t (0 : Fin 2) * 2000 + 1 * (j 0).val = win0_5.index t (0 : Fin 2) * 2000 + 1 * (j 0).val
      omega
    | ⟨1, _⟩ =>
      show win0_2.index t (1 : Fin 2) * 128 + 1 * k.val = k.val
      omega
  · show V c main_call0_v8 (((cfg0.win 1).blk t).view.emb (ix2 (j 0) (0 : Fin 1)))
      = V c main_call0_v8 (ix2 ((((cfg0.win 5).blk t).view.emb j) 0) (0 : Fin 1))
    refine congrArg _ (funext fun a => Fin.ext ?_)
    match a with
    | ⟨0, _⟩ =>
      show win0_1.index t (0 : Fin 2) * 2000 + 1 * (j 0).val = win0_5.index t (0 : Fin 2) * 2000 + 1 * (j 0).val
      omega
    | ⟨1, _⟩ =>
      show win0_1.index t (1 : Fin 2) * 1 + 1 * 0 = 0
      omega
  · funext y
    have hy0 : (y 0).val < 256 := (y 0).isLt
    have hy1 : (y 1).val < 128 := (y 1).isLt
    show V c main_call0_v19 (((cfg0.win 3).blk t).view.emb y) = V c main_call0_v19 y
    refine congrArg _ (funext fun a => Fin.ext ?_)
    match a with
    | ⟨0, _⟩ =>
      show win0_3.index t (0 : Fin 2) * 256 + 1 * (y 0).val = (y 0).val
      omega
    | ⟨1, _⟩ =>
      show win0_3.index t (1 : Fin 2) * 128 + 1 * (y 1).val = (y 1).val
      omega
  · funext y
    have hy0 : (y 0).val < 128 := (y 0).isLt
    show V c main_arg3 (((cfg0.win 4).blk t).view.emb y) = V c main_arg3 y
    refine congrArg _ (funext fun a => Fin.ext ?_)
    match a with
    | ⟨0, _⟩ =>
      show win0_4.index t (0 : Fin 1) * 128 + 1 * (y 0).val = (y 0).val
      omega
  · apply Fin.ext
    show (j 1).val = win0_5.index t (1 : Fin 2) * 128 + 1 * (j 1).val
    omega

/-- An index of the result array is in point `t`'s block iff each coordinate is in the block's range on its axis. -/
theorem mem_blk0 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_call0_v20).slice (win0_5.rect t)).set ↔ _
  rw [View.set_slice_whole, Rect.mem_set_unit]
  exact Iff.rfl

/-- The 25 blocks of 2000 rows cover the 50000 rows: row `r` lies in the block of point `r / 2000`. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_5 _, ?_⟩
  rw [mem_blk0]
  obtain ⟨-, -, -, -, -, -, -, -, -, e50, e51⟩ := idx_facts0 ⟨(i 0).val / 2000, by rw [hN]; omega⟩
  intro a
  match a with
  | ⟨0, _⟩ =>
    show win0_5.index _ (0 : Fin 2) * 2000 ≤ (i 0).val ∧ (i 0).val < win0_5.index _ (0 : Fin 2) * 2000 + 2000
    rw [e50]
    show (i 0).val / 2000 * 2000 ≤ (i 0).val ∧ (i 0).val < (i 0).val / 2000 * 2000 + 2000
    omega
  | ⟨1, _⟩ =>
    show win0_5.index _ (1 : Fin 2) * 128 ≤ (i 1).val ∧ (i 1).val < win0_5.index _ (1 : Fin 2) * 128 + 128
    rw [e51]
    omega

/-- After the first launch its result array is `G0` of the arrays the launch found. -/
theorem final0 (c : Dev nD) : (dat0 V c).arrAt 5 cfg0.N = G0 V c :=
  (dat0 V c).arrAt_eq_of_cover 5 (G0 V c) (fun t _ => flushed0_eq V c t) (cover0)

/-! ## The second launch -/

/-- What the second launch's result array ends holding, as one function of the arrays the launch finds: the
    fused layer of the neighbour sums, the node features, the degree column, the stacked weights and the bias. -/
def G1 (c : Dev nD) : S50000x128.Idx → EReal :=
  Cert.SageNet.fused (n := 50000) (K := 128) (M := 128) (V c main_call0_v30) (V c main_call0_v20) (V c main_call0_v8) (V c main_call0_v31) (V c main_arg6)

/-- The windows' index maps over the 25 grid points: the row-blocked windows sit at block row `t`, the weights and the
    bias at block zero. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- What point `t` writes back is block `t` of `G1`: rows 2000 t to 2000 t + 1999, each a function of the same
    row of the neighbour sums, the features and the degrees, and of the whole weights and bias. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz2]
  simp only [View.ld_unit_zero (S := S2000x1) hz2, View.ld_unit_zero (S := S2000x128) hz2,
    View.ld_unit_zero (S := S256x128) hz2, View.ld_unit_zero (S := S128) hz1]
  obtain ⟨e00, e01, e10, e11, e20, e21, e30, e31, e40, e50, e51⟩ := idx_facts1 t
  funext j
  have hj0 : (j 0).val < 2000 := (j 0).isLt
  have hj1 : (j 1).val < 128 := (j 1).isLt
  show k1_pay1 (iblk1 V c 1 t) (iblk1 V c 0 t) (iblk1 V c 2 t) (iblk1 V c 3 t) (iblk1 V c 4 t) j
    = G1 V c (((cfg1.win 5).blk t).view.emb j)
  refine Body.pay1_at (iblk1 V c 1 t) (iblk1 V c 0 t) (iblk1 V c 2 t) (iblk1 V c 3 t) (iblk1 V c 4 t)
    (V c main_call0_v30) (V c main_call0_v20) (V c main_call0_v8) (V c main_call0_v31) (V c main_arg6) j
    (((cfg1.win 5).blk t).view.emb j) ?_ ?_ ?_ ?_ ?_ ?_
  · intro k
    have hk : k.val < 128 := k.isLt
    show V c main_call0_v30 (((cfg1.win 0).blk t).view.emb (ix2 (j 0) k))
      = V c main_call0_v30 (ix2 ((((cfg1.win 5).blk t).view.emb j) 0) k)
    refine congrArg _ (funext fun a => Fin.ext ?_)
    match a with
    | ⟨0, _⟩ =>
      show win1_0.index t (0 : Fin 2) * 2000 + 1 * (j 0).val = win1_5.index t (0 : Fin 2) * 2000 + 1 * (j 0).val
      omega
    | ⟨1, _⟩ =>
      show win1_0.index t (1 : Fin 2) * 128 + 1 * k.val = k.val
      omega
  · intro k
    have hk : k.val < 128 := k.isLt
    show V c main_call0_v20 (((cfg1.win 2).blk t).view.emb (ix2 (j 0) k))
      = V c main_call0_v20 (ix2 ((((cfg1.win 5).blk t).view.emb j) 0) k)
    refine congrArg _ (funext fun a => Fin.ext ?_)
    match a with
    | ⟨0, _⟩ =>
      show win1_2.index t (0 : Fin 2) * 2000 + 1 * (j 0).val = win1_5.index t (0 : Fin 2) * 2000 + 1 * (j 0).val
      omega
    | ⟨1, _⟩ =>
      show win1_2.index t (1 : Fin 2) * 128 + 1 * k.val = k.val
      omega
  · show V c main_call0_v8 (((cfg1.win 1).blk t).view.emb (ix2 (j 0) (0 : Fin 1)))
      = V c main_call0_v8 (ix2 ((((cfg1.win 5).blk t).view.emb j) 0) (0 : Fin 1))
    refine congrArg _ (funext fun a => Fin.ext ?_)
    match a with
    | ⟨0, _⟩ =>
      show win1_1.index t (0 : Fin 2) * 2000 + 1 * (j 0).val = win1_5.index t (0 : Fin 2) * 2000 + 1 * (j 0).val
      omega
    | ⟨1, _⟩ =>
      show win1_1.index t (1 : Fin 2) * 1 + 1 * 0 = 0
      omega
  · funext y
    have hy0 : (y 0).val < 256 := (y 0).isLt
    have hy1 : (y 1).val < 128 := (y 1).isLt
    show V c main_call0_v31 (((cfg1.win 3).blk t).view.emb y) = V c main_call0_v31 y
    refine congrArg _ (funext fun a => Fin.ext ?_)
    match a with
    | ⟨0, _⟩ =>
      show win1_3.index t (0 : Fin 2) * 256 + 1 * (y 0).val = (y 0).val
      omega
    | ⟨1, _⟩ =>
      show win1_3.index t (1 : Fin 2) * 128 + 1 * (y 1).val = (y 1).val
      omega
  · funext y
    have hy0 : (y 0).val < 128 := (y 0).isLt
    show V c main_arg6 (((cfg1.win 4).blk t).view.emb y) = V c main_arg6 y
    refine congrArg _ (funext fun a => Fin.ext ?_)
    match a with
    | ⟨0, _⟩ =>
      show win1_4.index t (0 : Fin 1) * 128 + 1 * (y 0).val = (y 0).val
      omega
  · apply Fin.ext
    show (j 1).val = win1_5.index t (1 : Fin 2) * 128 + 1 * (j 1).val
    omega

/-- An index of the result array is in point `t`'s block iff each coordinate is in the block's range on its axis. -/
theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v0).slice (win1_5.rect t)).set ↔ _
  rw [View.set_slice_whole, Rect.mem_set_unit]
  exact Iff.rfl

/-- The 25 blocks of 2000 rows cover the 50000 rows: row `r` lies in the block of point `r / 2000`. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_5 _, ?_⟩
  rw [mem_blk1]
  obtain ⟨-, -, -, -, -, -, -, -, -, e50, e51⟩ := idx_facts1 ⟨(i 0).val / 2000, by rw [hN]; omega⟩
  intro a
  match a with
  | ⟨0, _⟩ =>
    show win1_5.index _ (0 : Fin 2) * 2000 ≤ (i 0).val ∧ (i 0).val < win1_5.index _ (0 : Fin 2) * 2000 + 2000
    rw [e50]
    show (i 0).val / 2000 * 2000 ≤ (i 0).val ∧ (i 0).val < (i 0).val / 2000 * 2000 + 2000
    omega
  | ⟨1, _⟩ =>
    show win1_5.index _ (1 : Fin 2) * 128 ≤ (i 1).val ∧ (i 1).val < win1_5.index _ (1 : Fin 2) * 128 + 128
    rw [e51]
    omega

/-- After the second launch its result array is `G1` of the arrays the launch found. -/
theorem final1 (c : Dev nD) : (dat1 V c).arrAt 5 cfg1.N = G1 V c :=
  (dat1 V c).arrAt_eq_of_cover 5 (G1 V c) (fun t _ => flushed1_eq V c t) (cover1)

end Cert.KernelIdeal.Blocks

end
-- ==== Proof.LibChannelOps.lean ====
/-
  Two matrices stacked along the first axis, read at an index — general in the extents.

  An `A1 × b` matrix on top of an `A2 × b` matrix is an `A × b` matrix whose rows below `A1` are the first matrix's
  and whose rows from `A1` on are the second's.
-/
import Idealize.ShloMosaic.Lib.ValueIdx
import Idealize.ShloMosaic.Lib.Pipeline.Value

noncomputable section

namespace Cert.LibChannelOps

open Idealize.ShloMosaic Idealize.ShloMosaic.ValueIdx

variable {A A1 A2 b : ℕ} {α : Type}

/-- Rows below the first matrix's extent are the first matrix's. -/
theorem concatRows_left (x₁ : (⟨2, ![A1, b]⟩ : Shape).Idx → α) (x₂ : (⟨2, ![A2, b]⟩ : Shape).Idx → α)
    (h : Shape.Concatenates [(⟨2, ![A1, b]⟩ : Shape), (⟨2, ![A2, b]⟩ : Shape)] (⟨2, ![A, b]⟩ : Shape) 0)
    (q : Fin A) (n : Fin b) (hq : q.val < A1) :
    concatenate (⟨2, ![A, b]⟩ : Shape) 0 [⟨_, x₁⟩, ⟨_, x₂⟩] h (ix2 q n) = x₁ (ix2 ⟨q.val, hq⟩ n) :=
  concatenate_pair_apply_left 0 x₁ x₂ h (ix2 q n) rfl (ix2 ⟨q.val, hq⟩ n) (fun c => by
    match c with
    | ⟨0, _⟩ => rfl
    | ⟨1, _⟩ => rfl)

/-- Rows from the first matrix's extent on are the second matrix's. -/
theorem concatRows_right (x₁ : (⟨2, ![A1, b]⟩ : Shape).Idx → α) (x₂ : (⟨2, ![A2, b]⟩ : Shape).Idx → α)
    (h : Shape.Concatenates [(⟨2, ![A1, b]⟩ : Shape), (⟨2, ![A2, b]⟩ : Shape)] (⟨2, ![A, b]⟩ : Shape) 0)
    (q : Fin A) (n : Fin b) (hq : A1 ≤ q.val) (hlt : q.val - A1 < A2) :
    concatenate (⟨2, ![A, b]⟩ : Shape) 0 [⟨_, x₁⟩, ⟨_, x₂⟩] h (ix2 q n) = x₂ (ix2 ⟨q.val - A1, hlt⟩ n) :=
  concatenate_pair_apply_right 0 x₁ x₂ h (ix2 q n) rfl rfl (ix2 ⟨q.val - A1, hlt⟩ n) (fun c hc => by
    match c with
    | ⟨0, _⟩ => exact absurd rfl hc
    | ⟨1, _⟩ => rfl) (by
    show (q.val - A1) + A1 = q.val
    omega)

end Cert.LibChannelOps

end
-- ==== Proof.KernelValue.lean ====
/-
  The idealized kernel's result as the two-layer network.

  Before the first launch whole-array operations cut the edge list into its row of sources and its row of targets,
  count the edges at every target (the degrees, kept as a column), gather the feature rows at the sources and add
  them up at the targets (the neighbour sums), and stack the first layer's two weight matrices. The first launch
  leaves the rectified fused layer of these. Between the launches the same gather and scatter are applied to the
  first layer's result and the second layer's weights are stacked; the degree column is reused. The second launch
  leaves the fused layer of those, unrectified.

  The stacked matrix's first 128 rows are the first weight matrix and its last 128 rows the second, and the degree
  column at (p, 0) is the degree of p; so each fused layer is the specification's layer, and the result is the
  two-layer network of the arguments with the gather-then-scatter as its neighbour map.
-/
import proofs.«136146_j27462020890936_2_alg».proof.Proof.Gen.KernelIdeal.Frame
import proofs.«136146_j27462020890936_2_alg».proof.Proof.Blocks
import proofs.«136146_j27462020890936_2_alg».proof.Proof.LibFusedLayer
import proofs.«136146_j27462020890936_2_alg».proof.Proof.LibChannelOps
import Idealize.ShloMosaic.Lib.StableHlo.Run
import Idealize.ShloMosaic.Lib.Pipeline.Value
import Idealize.ShloMosaic.Lib.ValueIdx

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.Sem
open Idealize.ShloMosaic.Pipeline (Dat)
open Idealize.ShloMosaic.ValueIdx
open Cert.GraphConv Cert.MeanLayer Cert.SageNet

/-- The edge list's first row: the source node of every edge. -/
def srcRow (e : (⟨S2x600000, .i32⟩ : BufTy).Contents (Elt Ideal)) : (⟨S600000, .i32⟩ : BufTy).Contents (Elt Ideal) :=
  shapeCast _ (extractStridedSlice S1x600000 ![0, 0] e slices_S2x600000_S1x600000_0_0) shapeCasts_S1x600000_S600000

/-- The edge list's second row: the target node of every edge. -/
def dstRow (e : (⟨S2x600000, .i32⟩ : BufTy).Contents (Elt Ideal)) : (⟨S600000, .i32⟩ : BufTy).Contents (Elt Ideal) :=
  shapeCast _ (extractStridedSlice S1x600000 ![1, 0] e slices_S2x600000_S1x600000_1_0) shapeCasts_S1x600000_S600000

/-- The neighbour sums of a feature matrix for given source and target rows: the feature rows at the sources (a
    negative index counted from the end), added up at the targets. -/
def nbSumOf (src dst : (⟨S600000, .i32⟩ : BufTy).Contents (Elt Ideal)) (x : (⟨S50000x128, .f32⟩ : BufTy).Contents (Elt Ideal)) :
    (⟨S50000x128, .f32⟩ : BufTy).Contents (Elt Ideal) :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (Host.gather gather_S50000x128_S600000x1_S600000x128_1_0_n_n_0_1_1128 x
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src)))

/-- The neighbour sums along an edge list. -/
def nbSum (e : (⟨S2x600000, .i32⟩ : BufTy).Contents (Elt Ideal)) (x : (⟨S50000x128, .f32⟩ : BufTy).Contents (Elt Ideal)) :
    (⟨S50000x128, .f32⟩ : BufTy).Contents (Elt Ideal) :=
  nbSumOf (srcRow e) (dstRow e) x

/-- The degrees: a one added up at every edge's target. -/
def degree (e : (⟨S2x600000, .i32⟩ : BufTy).Contents (Elt Ideal)) : (⟨S50000, .f32⟩ : BufTy).Contents (Elt Ideal) :=
  Host.scatterAdd (F := Ideal) scatter_S50000_S600000x1_S600000_n_0_0_1
    (broadcastInDim S50000 ![] bcast_S_S50000 (constant (F := Ideal) S_ .f32 0x00000000#32))
    (broadcastInDim S600000x1 ![0] bcast_S600000_S600000x1_0 (dstRow e))
    (broadcastInDim S600000 ![] bcast_S_S600000 (constant (F := Ideal) S_ .f32 0x3F800000#32))

/-- The degrees as a column. -/
def degreeCol (e : (⟨S2x600000, .i32⟩ : BufTy).Contents (Elt Ideal)) : (⟨S50000x1, .f32⟩ : BufTy).Contents (Elt Ideal) :=
  broadcastInDim S50000x1 ![0] bcast_S50000_S50000x1_0 (degree e)

/-- Two weight matrices stacked, the first on top. -/
def stack (a b : (⟨S128x128, .f32⟩ : BufTy).Contents (Elt Ideal)) : (⟨S256x128, .f32⟩ : BufTy).Contents (Elt Ideal) :=
  concatenate S256x128 0 [⟨S128x128, a⟩, ⟨S128x128, b⟩] concatenates_S128x128_S128x128_S256x128_d0

/-! ## The degree column and the stacked weights read at an entry -/

theorem degreeCol_apply (e : (⟨S2x600000, .i32⟩ : BufTy).Contents (Elt Ideal)) (p : Fin 50000) :
    degreeCol e (ix2 p (0 : Fin 1)) = degree e (ix1 p) := by
  unfold degreeCol
  exact broadcastInDim_apply _ bcast_S50000_S50000x1_0 (degree e) (ix2 p (0 : Fin 1)) (ix1 p) (fun a => match a with
    | ⟨0, _⟩ => by show p.val = if (50000 : Nat) = 1 then 0 else p.val; rw [if_neg (by decide)])

theorem stack_top (a b : (⟨S128x128, .f32⟩ : BufTy).Contents (Elt Ideal)) (k q : Fin 128) :
    stack a b (ix2 (Fin.castAdd 128 k) q) = a (ix2 k q) := by
  unfold stack
  exact Cert.LibChannelOps.concatRows_left a b concatenates_S128x128_S128x128_S256x128_d0 (Fin.castAdd 128 k) q k.isLt

theorem stack_bottom (a b : (⟨S128x128, .f32⟩ : BufTy).Contents (Elt Ideal)) (k q : Fin 128) :
    stack a b (ix2 (Fin.natAdd 128 k) q) = b (ix2 k q) := by
  unfold stack
  have hk : k.val < 128 := k.isLt
  have h := Cert.LibChannelOps.concatRows_right a b concatenates_S128x128_S128x128_S256x128_d0 (Fin.natAdd 128 k) q
    (by show 128 ≤ 128 + k.val; omega) (by show 128 + k.val - 128 < 128; omega)
  rw [h]
  refine congrArg b (congrArg (fun z => ix2 z q) (Fin.ext ?_))
  show 128 + k.val - 128 = k.val
  omega

/-! ## A stretch of whole-array operations read at one buffer, from any starting contents `W` -/

section Stretches

variable (W : Valuation τ sig (Elt Ideal))

theorem after0_arg0 : StableHlo.after hostOps0 W (Proc.devRef .tc main_arg0) = W (Proc.devRef .tc main_arg0) := by after_results
theorem after0_arg3 : StableHlo.after hostOps0 W (Proc.devRef .tc main_arg3) = W (Proc.devRef .tc main_arg3) := by after_results
theorem after0_arg5 : StableHlo.after hostOps0 W (Proc.devRef .tc main_arg5) = W (Proc.devRef .tc main_arg5) := by after_results
theorem after0_arg6 : StableHlo.after hostOps0 W (Proc.devRef .tc main_arg6) = W (Proc.devRef .tc main_arg6) := by after_results
theorem after0_arg7 : StableHlo.after hostOps0 W (Proc.devRef .tc main_arg7) = W (Proc.devRef .tc main_arg7) := by after_results

theorem after0_v1 : StableHlo.after hostOps0 W (Proc.devRef .tc main_call0_v1) = srcRow (W (Proc.devRef .tc main_arg1)) := by
  after_results
  rfl

theorem after0_v3 : StableHlo.after hostOps0 W (Proc.devRef .tc main_call0_v3) = dstRow (W (Proc.devRef .tc main_arg1)) := by
  after_results
  rfl

theorem after0_v19 : StableHlo.after hostOps0 W (Proc.devRef .tc main_call0_v19)
    = stack (W (Proc.devRef .tc main_arg2)) (W (Proc.devRef .tc main_arg4)) := by
  after_results
  rfl

theorem after0_v8 : StableHlo.after hostOps0 W (Proc.devRef .tc main_call0_v8) = degreeCol (W (Proc.devRef .tc main_arg1)) := by
  after_results
  rfl

set_option maxHeartbeats 400000 in
theorem after0_v18 : StableHlo.after hostOps0 W (Proc.devRef .tc main_call0_v18)
    = nbSum (W (Proc.devRef .tc main_arg1)) (W (Proc.devRef .tc main_arg0)) := by
  after_results
  rfl

theorem after1_arg6 : StableHlo.after hostOps1 W (Proc.devRef .tc main_arg6) = W (Proc.devRef .tc main_arg6) := by after_results
theorem after1_v8 : StableHlo.after hostOps1 W (Proc.devRef .tc main_call0_v8) = W (Proc.devRef .tc main_call0_v8) := by after_results
theorem after1_v20 : StableHlo.after hostOps1 W (Proc.devRef .tc main_call0_v20) = W (Proc.devRef .tc main_call0_v20) := by after_results

theorem after1_v31 : StableHlo.after hostOps1 W (Proc.devRef .tc main_call0_v31)
    = stack (W (Proc.devRef .tc main_arg5)) (W (Proc.devRef .tc main_arg7)) := by
  after_results
  rfl

set_option maxHeartbeats 400000 in
theorem after1_v30 : StableHlo.after hostOps1 W (Proc.devRef .tc main_call0_v30)
    = nbSumOf (W (Proc.devRef .tc main_call0_v1)) (W (Proc.devRef .tc main_call0_v3)) (W (Proc.devRef .tc main_call0_v20)) := by
  after_results
  rfl

end Stretches

variable (m : (ℓ : Loc nD τ sig) → Buf (Elt Ideal) ℓ) (ρ : Dev nD → PrngReg)

/-! ## What the first launch finds -/

theorem V1_arg0 (c : Dev nD) : V1 m ρ c main_arg0 = (m ((c : Thread nD τ).loc main_arg0)) := after0_arg0 (W0 m ρ c)
theorem V1_arg3 (c : Dev nD) : V1 m ρ c main_arg3 = (m ((c : Thread nD τ).loc main_arg3)) := after0_arg3 (W0 m ρ c)
theorem V1_v19 (c : Dev nD) : V1 m ρ c main_call0_v19 = stack (m ((c : Thread nD τ).loc main_arg2)) (m ((c : Thread nD τ).loc main_arg4)) := after0_v19 (W0 m ρ c)
theorem V1_v8 (c : Dev nD) : V1 m ρ c main_call0_v8 = degreeCol (m ((c : Thread nD τ).loc main_arg1)) := after0_v8 (W0 m ρ c)
theorem V1_v18 (c : Dev nD) : V1 m ρ c main_call0_v18 = nbSum (m ((c : Thread nD τ).loc main_arg1)) (m ((c : Thread nD τ).loc main_arg0)) := after0_v18 (W0 m ρ c)

/-- The first layer's result: the rectified layer of the arguments. -/
theorem first_layer (c : Dev nD) :
    Blocks.G0 (V1 m ρ) c
      = layer (nbSum (m ((c : Thread nD τ).loc main_arg1))) (clamp (degree (m ((c : Thread nD τ).loc main_arg1)))) (m ((c : Thread nD τ).loc main_arg0)) (m ((c : Thread nD τ).loc main_arg2)) (m ((c : Thread nD τ).loc main_arg4)) (biasRow (m ((c : Thread nD τ).loc main_arg3))) := by
  unfold Blocks.G0
  rw [V1_v18, V1_arg0, V1_v8, V1_v19, V1_arg3]
  exact rectify_fused_eq_layer (N := 50000) (K := 128) (M := 128) (nbSum (m ((c : Thread nD τ).loc main_arg1))) (degree (m ((c : Thread nD τ).loc main_arg1))) (m ((c : Thread nD τ).loc main_arg0)) (m ((c : Thread nD τ).loc main_arg2)) (m ((c : Thread nD τ).loc main_arg4)) (m ((c : Thread nD τ).loc main_arg3))
    (degreeCol (m ((c : Thread nD τ).loc main_arg1))) (stack (m ((c : Thread nD τ).loc main_arg2)) (m ((c : Thread nD τ).loc main_arg4))) (degreeCol_apply _) (stack_top _ _) (stack_bottom _ _)

/-! ## What the first launch leaves, and what the operations between the launches carry over -/

theorem W2_v20 (c : Dev nD) : W2 m ρ c (Proc.devRef .tc main_call0_v20) = Blocks.G0 (V1 m ρ) c :=
  (W2_arr m ρ c 5).trans (Blocks.final0 (V1 m ρ) c)

theorem W2_v1 (c : Dev nD) : W2 m ρ c (Proc.devRef .tc main_call0_v1) = srcRow (m ((c : Thread nD τ).loc main_arg1)) :=
  (W2_of_ne m ρ c main_call0_v1 (by decide)).trans (after0_v1 (W0 m ρ c))

theorem W2_v3 (c : Dev nD) : W2 m ρ c (Proc.devRef .tc main_call0_v3) = dstRow (m ((c : Thread nD τ).loc main_arg1)) :=
  (W2_of_ne m ρ c main_call0_v3 (by decide)).trans (after0_v3 (W0 m ρ c))

/-- The degree column is an input of the first launch, which stages it and never writes it back. -/
theorem W2_v8 (c : Dev nD) : W2 m ρ c (Proc.devRef .tc main_call0_v8) = degreeCol (m ((c : Thread nD τ).loc main_arg1)) :=
  (W2_arr m ρ c 1).trans (((dat0 (V1 m ρ) c).arrAt_in 1 rfl _).trans ((A_eq0 (V1 m ρ) c 1).trans (V1_v8 m ρ c)))

theorem W2_arg5 (c : Dev nD) : W2 m ρ c (Proc.devRef .tc main_arg5) = (m ((c : Thread nD τ).loc main_arg5)) :=
  (W2_of_ne m ρ c main_arg5 (by decide)).trans (after0_arg5 (W0 m ρ c))

theorem W2_arg6 (c : Dev nD) : W2 m ρ c (Proc.devRef .tc main_arg6) = (m ((c : Thread nD τ).loc main_arg6)) :=
  (W2_of_ne m ρ c main_arg6 (by decide)).trans (after0_arg6 (W0 m ρ c))

theorem W2_arg7 (c : Dev nD) : W2 m ρ c (Proc.devRef .tc main_arg7) = (m ((c : Thread nD τ).loc main_arg7)) :=
  (W2_of_ne m ρ c main_arg7 (by decide)).trans (after0_arg7 (W0 m ρ c))

/-! ## What the second launch finds -/

theorem V3_v30 (c : Dev nD) : V3 m ρ c main_call0_v30 = nbSum (m ((c : Thread nD τ).loc main_arg1)) (Blocks.G0 (V1 m ρ) c) :=
  (after1_v30 (W2 m ρ c)).trans (by rw [W2_v1, W2_v3, W2_v20]; rfl)

theorem V3_v8 (c : Dev nD) : V3 m ρ c main_call0_v8 = degreeCol (m ((c : Thread nD τ).loc main_arg1)) :=
  (after1_v8 (W2 m ρ c)).trans (W2_v8 m ρ c)

theorem V3_v20 (c : Dev nD) : V3 m ρ c main_call0_v20 = Blocks.G0 (V1 m ρ) c :=
  (after1_v20 (W2 m ρ c)).trans (W2_v20 m ρ c)

theorem V3_v31 (c : Dev nD) : V3 m ρ c main_call0_v31 = stack (m ((c : Thread nD τ).loc main_arg5)) (m ((c : Thread nD τ).loc main_arg7)) :=
  (after1_v31 (W2 m ρ c)).trans (by rw [W2_arg5, W2_arg7])

theorem V3_arg6 (c : Dev nD) : V3 m ρ c main_arg6 = (m ((c : Thread nD τ).loc main_arg6)) :=
  (after1_arg6 (W2 m ρ c)).trans (W2_arg6 m ρ c)

/-! ## The result -/

/-- The second launch's result array: the unrectified layer of the first layer's result. -/
theorem second_layer (c : Dev nD) :
    Blocks.G1 (V3 m ρ) c
      = net (nbSum (m ((c : Thread nD τ).loc main_arg1))) (clamp (degree (m ((c : Thread nD τ).loc main_arg1)))) (m ((c : Thread nD τ).loc main_arg0)) (m ((c : Thread nD τ).loc main_arg2)) (m ((c : Thread nD τ).loc main_arg4)) (biasRow (m ((c : Thread nD τ).loc main_arg3)))
          (m ((c : Thread nD τ).loc main_arg5)) (m ((c : Thread nD τ).loc main_arg7)) (biasRow (m ((c : Thread nD τ).loc main_arg6))) := by
  unfold Blocks.G1
  rw [V3_v30, V3_v20, V3_v8, V3_v31, V3_arg6, first_layer]
  exact fused_eq_plain (N := 50000) (K := 128) (M := 128) (nbSum (m ((c : Thread nD τ).loc main_arg1))) (degree (m ((c : Thread nD τ).loc main_arg1))) _ (m ((c : Thread nD τ).loc main_arg5)) (m ((c : Thread nD τ).loc main_arg7)) (m ((c : Thread nD τ).loc main_arg6))
    (degreeCol (m ((c : Thread nD τ).loc main_arg1))) (stack (m ((c : Thread nD τ).loc main_arg5)) (m ((c : Thread nD τ).loc main_arg7))) (degreeCol_apply _) (stack_top _ _) (stack_bottom _ _)

/-- What the second launch leaves in the result buffer: the two-layer network of the arguments. -/
theorem result (c : Dev nD) :
    W4 m ρ c (Proc.devRef .tc main_v0)
      = net (nbSum (m ((c : Thread nD τ).loc main_arg1))) (clamp (degree (m ((c : Thread nD τ).loc main_arg1)))) (m ((c : Thread nD τ).loc main_arg0)) (m ((c : Thread nD τ).loc main_arg2)) (m ((c : Thread nD τ).loc main_arg4)) (biasRow (m ((c : Thread nD τ).loc main_arg3)))
          (m ((c : Thread nD τ).loc main_arg5)) (m ((c : Thread nD τ).loc main_arg7)) (biasRow (m ((c : Thread nD τ).loc main_arg6))) :=
  (W4_arr m ρ c 5).trans ((Blocks.final1 (V3 m ρ) c).trans (second_layer m ρ c))

end Cert.KernelIdeal.Net

end
-- ==== Proof.RefValue.lean ====
/-
  The reference's result as the two-layer network.

  Operation by operation the reference gathers the feature rows at the edges' sources, adds them up at the edges'
  targets, counts the edges at every target, clamps that count from below by one, divides the sums row by row,
  multiplies by the first weight matrix, adds the bias to every row, adds the product of the features with the second
  weight matrix, rectifies, and does the same once more on the result without the rectifier. Read at an entry (p, q)
  each layer is the sum over k of (neighbour sum (p, k) / clamped degree p) · first weight (k, q), plus the bias at q,
  plus the sum over k of feature (p, k) · second weight (k, q): the layer of the specification with the bias added
  between the two products. The gather and the scatter are never opened; they are one map `nb` of the feature matrix.
-/
import proofs.«136146_j27462020890936_2_alg».proof.Proof.Gen.ReferenceIdeal.Read
import proofs.«136146_j27462020890936_2_alg».proof.Proof.LibFusedLayer
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx
open Cert.GraphConv Cert.MeanLayer Cert.SageNet

/-- The neighbour sums of a feature matrix along the edge list `e`: the rows at the edges' sources added up at the
    edges' targets (the reference's gather then accumulating scatter, taken whole). -/
def nb (e : (⟨S2x600000, .i32⟩ : BufTy).Contents (Elt Ideal)) :
    ((⟨S50000x128, .f32⟩ : BufTy).Contents (Elt Ideal)) → (⟨S50000x128, .f32⟩ : BufTy).Contents (Elt Ideal) :=
  fun x => val_main_v13 (F := Ideal) x e

/-! ## Index bookkeeping: the positions the generated read-at-an-index lemmas compute, as coordinates -/

theorem lidx23 (p : Fin 50000) (q k : Fin 128) : lidx_main_v23 (ix2 p q) k = ix2 p k :=
  funext fun a => Fin.ext (by match a with | ⟨0, _⟩ => rfl | ⟨1, _⟩ => rfl)
theorem ridx23 (p : Fin 50000) (q k : Fin 128) : ridx_main_v23 (ix2 p q) k = ix2 k q :=
  funext fun a => Fin.ext (by match a with | ⟨0, _⟩ => rfl | ⟨1, _⟩ => rfl)
theorem lidx27 (p : Fin 50000) (q k : Fin 128) : lidx_main_v27 (ix2 p q) k = ix2 p k :=
  funext fun a => Fin.ext (by match a with | ⟨0, _⟩ => rfl | ⟨1, _⟩ => rfl)
theorem ridx27 (p : Fin 50000) (q k : Fin 128) : ridx_main_v27 (ix2 p q) k = ix2 k q :=
  funext fun a => Fin.ext (by match a with | ⟨0, _⟩ => rfl | ⟨1, _⟩ => rfl)
theorem lidx49 (p : Fin 50000) (q k : Fin 128) : lidx_main_v49 (ix2 p q) k = ix2 p k :=
  funext fun a => Fin.ext (by match a with | ⟨0, _⟩ => rfl | ⟨1, _⟩ => rfl)
theorem ridx49 (p : Fin 50000) (q k : Fin 128) : ridx_main_v49 (ix2 p q) k = ix2 k q :=
  funext fun a => Fin.ext (by match a with | ⟨0, _⟩ => rfl | ⟨1, _⟩ => rfl)
theorem lidx53 (p : Fin 50000) (q k : Fin 128) : lidx_main_v53 (ix2 p q) k = ix2 p k :=
  funext fun a => Fin.ext (by match a with | ⟨0, _⟩ => rfl | ⟨1, _⟩ => rfl)
theorem ridx53 (p : Fin 50000) (q k : Fin 128) : ridx_main_v53 (ix2 p q) k = ix2 k q :=
  funext fun a => Fin.ext (by match a with | ⟨0, _⟩ => rfl | ⟨1, _⟩ => rfl)

theorem degIdx (p : Fin 50000) (q : Fin 128) : idx_main_v20 (idx_main_v21 (ix2 p q)) = ix1 p :=
  funext fun a => Fin.ext (by match a with | ⟨0, _⟩ => rfl)
theorem degIdx' (p : Fin 50000) (q : Fin 128) : idx_main_v46 (idx_main_v47 (ix2 p q)) = ix1 p :=
  funext fun a => Fin.ext (by match a with | ⟨0, _⟩ => rfl)
theorem biasIdx (p : Fin 50000) (q : Fin 128) : idx_main_v24 (idx_main_v25 (ix2 p q)) = ix1 q :=
  funext fun a => Fin.ext (by match a with | ⟨0, _⟩ => rfl)
theorem biasIdx' (p : Fin 50000) (q : Fin 128) : idx_main_v50 (idx_main_v51 (ix2 p q)) = ix1 q :=
  funext fun a => Fin.ext (by match a with | ⟨0, _⟩ => rfl)

/-! ## The first layer -/

/-- The divisor spread over a row is the row's degree clamped from below by one. -/
theorem deg_apply (e : (⟨S2x600000, .i32⟩ : BufTy).Contents (Elt Ideal)) (p : Fin 50000) (q : Fin 128) :
    val_main_v21 (F := Ideal) e (ix2 p q) = clamp (val_main_v17 (F := Ideal) e) (ix1 p) := by
  rw [val_main_v21_apply, val_main_v20_apply, val_main_v19_apply, val_main_v18_apply, val_main_cst_3_apply, degIdx]
  rfl

/-- The bias spread over the rows is the bias entry of the column. -/
theorem bias_apply (b : (⟨S128, .f32⟩ : BufTy).Contents (Elt Ideal)) (p : Fin 50000) (q : Fin 128) :
    val_main_v25 (F := Ideal) b (ix2 p q) = biasRow b (ix2 (0 : Fin 1) q) := by
  rw [val_main_v25_apply, val_main_v24_apply, biasIdx]
  rfl

theorem layer1 (x0 : (⟨S50000x128, .f32⟩ : BufTy).Contents (Elt Ideal)) (e : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v29 (F := Ideal) x0 e x2 x3 x4 = layer (nb e) (clamp (val_main_v17 (F := Ideal) e)) x0 x2 x4 (biasRow x3) := by
  funext i
  obtain ⟨p, q, rfl⟩ : ∃ (p : Fin 50000) (q : Fin 128), i = ix2 p q := ⟨i 0, i 1, eq_ix2 i⟩
  rw [← layer_apply_bias_between, val_main_v29_apply, val_main_v28_apply, val_main_v26_apply, val_main_v23_apply,
    val_main_v27_apply, val_main_call0_v0_apply, val_main_call0_cst_apply, bias_apply]
  simp only [lidx23, ridx23, lidx27, ridx27, val_main_v22_apply, deg_apply]
  rfl

/-! ## The second layer -/

/-- The second layer's neighbour sums are the same map applied to the first layer's result. -/
theorem nb2 (x0 : (⟨S50000x128, .f32⟩ : BufTy).Contents (Elt Ideal)) (e : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v39 (F := Ideal) x0 e x2 x3 x4 = nb e (val_main_v29 (F := Ideal) x0 e x2 x3 x4) := rfl

/-- The second layer divides by the same clamped degrees. -/
theorem deg2_apply (e : (⟨S2x600000, .i32⟩ : BufTy).Contents (Elt Ideal)) (p : Fin 50000) (q : Fin 128) :
    val_main_v47 (F := Ideal) e (ix2 p q) = clamp (val_main_v17 (F := Ideal) e) (ix1 p) := by
  rw [val_main_v47_apply, val_main_v46_apply, val_main_v45_apply, val_main_v44_apply, val_main_cst_9_apply, degIdx']
  rfl

theorem bias2_apply (b : (⟨S128, .f32⟩ : BufTy).Contents (Elt Ideal)) (p : Fin 50000) (q : Fin 128) :
    val_main_v51 (F := Ideal) b (ix2 p q) = biasRow b (ix2 (0 : Fin 1) q) := by
  rw [val_main_v51_apply, val_main_v50_apply, biasIdx']
  rfl

/-- The reference's result is the two-layer network of its arguments. -/
theorem result (x0 : (⟨S50000x128, .f32⟩ : BufTy).Contents (Elt Ideal)) (e : (⟨S2x600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v54 (F := Ideal) x0 e x2 x3 x4 x5 x6 x7
      = net (nb e) (clamp (val_main_v17 (F := Ideal) e)) x0 x2 x4 (biasRow x3) x5 x7 (biasRow x6) := by
  funext i
  obtain ⟨p, q, rfl⟩ : ∃ (p : Fin 50000) (q : Fin 128), i = ix2 p q := ⟨i 0, i 1, eq_ix2 i⟩
  unfold net
  rw [← plain_apply_bias_between, val_main_v54_apply, val_main_v52_apply, val_main_v49_apply, val_main_v53_apply, bias2_apply]
  simp only [lidx49, ridx49, lidx53, ridx53, val_main_v48_apply, deg2_apply, nb2, layer1]
  rfl

end Cert.ReferenceIdeal.RefValue

end
-- ==== Proof.lean ====
/-
  The five claims of this certificate.

  Both programs compute a two-layer graph network on 50000 nodes with 128 features: every layer replaces a node's row
  by (mean of its in-neighbours' rows) · W_l + b + (its own row) · W_r, the mean being the sum over incoming edges
  divided by the number of incoming edges clamped from below by one; the first layer is rectified.

  The reference does this with whole-array operations. The kernel forms the neighbour sums and the degrees with the
  same whole-array operations, and hands each layer's dense part to a launch over 25 blocks of 2000 rows that
  multiplies by the reciprocal of the clamped degree instead of dividing, and takes one matrix product of
  [mean | row] with the stacked weights [W_l ; W_r] instead of two products, adding the bias last instead of between.
  On the extended reals the product with the reciprocal of a nonzero number is the quotient, a sum over 256
  positions is the sum over its two halves, and addition is commutative and associative: the two results are equal
  entry by entry, and no entry has to be finite, so the precondition is not used.

  The three frames are the generated ones (the reference's is its generated run with the result dropped), the
  idealization rewrote nothing, and the value claim sets the kernel's run, with its result read as the network, beside
  the reference's.
-/
import proofs.«136146_j27462020890936_2_alg».proof.Defs
import proofs.«136146_j27462020890936_2_alg».proof.Proof.Gen.Kernel
import proofs.«136146_j27462020890936_2_alg».proof.Proof.Gen.Kernel.Skeleton
import proofs.«136146_j27462020890936_2_alg».proof.Proof.Gen.Kernel.Launch
import proofs.«136146_j27462020890936_2_alg».proof.Proof.Gen.Kernel.Points
import proofs.«136146_j27462020890936_2_alg».proof.Proof.Gen.Kernel.Frame
import proofs.«136146_j27462020890936_2_alg».proof.Proof.Gen.KernelIdeal
import proofs.«136146_j27462020890936_2_alg».proof.Proof.Gen.KernelIdeal.Skeleton
import proofs.«136146_j27462020890936_2_alg».proof.Proof.Gen.KernelIdeal.Launch
import proofs.«136146_j27462020890936_2_alg».proof.Proof.Gen.KernelIdeal.Points
import proofs.«136146_j27462020890936_2_alg».proof.Proof.Gen.KernelIdeal.Frame
import proofs.«136146_j27462020890936_2_alg».proof.Proof.Gen.ReferenceIdeal
import proofs.«136146_j27462020890936_2_alg».proof.Proof.Gen.ReferenceIdeal.Run
import proofs.«136146_j27462020890936_2_alg».proof.Proof.Gen.ReferenceIdeal.Read
import proofs.«136146_j27462020890936_2_alg».proof.Proof.Gen.Pre_finite_inputs
import proofs.«136146_j27462020890936_2_alg».proof.Proof.KernelRun
import proofs.«136146_j27462020890936_2_alg».proof.Proof.KernelValue
import proofs.«136146_j27462020890936_2_alg».proof.Proof.RefValue
import Idealize.ShloMosaic.Adequacy
import Idealize.ShloMosaic.Init

noncomputable section

namespace Cert.Proof

open Idealize.ShloMosaic Idealize.ShloMosaic.TcCoe Idealize.SL.Sem

/-- The kernel's gather-then-scatter is the reference's: the same whole-array operations with the same dimension
    numbers. -/
theorem nb_eq (e : (⟨Cert.KernelIdeal.S2x600000, .i32⟩ : BufTy).Contents (Elt Ideal)) :
    Cert.KernelIdeal.Net.nbSum e = Cert.ReferenceIdeal.RefValue.nb e := rfl

/-- The kernel's edge count is the reference's. -/
theorem degree_eq (e : (⟨Cert.KernelIdeal.S2x600000, .i32⟩ : BufTy).Contents (Elt Ideal)) :
    Cert.KernelIdeal.Net.degree e = Cert.ReferenceIdeal.Read.val_main_v17 (F := Ideal) e := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the two-layer network of the (agreeing) arguments in their result buffers. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.Net.result m ρ c), (h c).2⟩)
      (Cert.KernelIdeal.Result.run_result (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v54_eq, Cert.ReferenceIdeal.RefValue.result, a0, a1, a2, a3, a4, a5, a6, a7,
    ← nb_eq, ← degree_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
